-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S4096x14336 : Shape := ⟨2, ![4096, 14336]⟩
abbrev S32x14336 : Shape := ⟨2, ![32, 14336]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S32x14336 : S_.BroadcastsInDim S32x14336 (![] : Fin 0 → Fin S32x14336.rank)
  reducesTo_S32x14336_S_d0_1 : S32x14336.ReducesTo [0, 1] S_

variable [Facts]

def fn {F : FTy → Type} [FloatOps F] (main_arg0 : FVec F S64x4096 .f32) (main_arg1 : IVec S4096x14336 32) (main_arg2 : FVec F S32x14336 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S32x14336 .f32 := Host.absf main_arg2
  let main_cst_0 : FVec F S_ .f32 := constant S_ .f32 0x7F800000#32
  let main_v5 : FVec F S32x14336 .f32 := broadcastInDim S32x14336 ![] bcast_S_S32x14336 main_cst_0
  let main_v6 : IVec S32x14336 1 := cmpf .olt main_v4 main_v5
  let main_c_1 : IVec S_ 1 := constantI S_ 1 1#1
  let main_v7 : IVec S_ 1 := (fun x v => Host.reduce IntOp.andi x v reducesTo_S32x14336_S_d0_1 h_S_) main_v6 main_c_1
  let main_v8 : IVec S_ 1 := andi main_v3 main_v7
  main_v8
-- ==== Kernel.lean ====
abbrev S64x4096 : Shape := ⟨2, ![64, 4096]⟩
abbrev S4096x14336 : Shape := ⟨2, ![4096, 14336]⟩
abbrev S32x14336 : Shape := ⟨2, ![32, 14336]⟩
abbrev S64x14336 : Shape := ⟨2, ![64, 14336]⟩
abbrev S64x1024 : Shape := ⟨2, ![64, 1024]⟩
abbrev S1024x1792 : Shape := ⟨2, ![1024, 1792]⟩
abbrev S8x1792 : Shape := ⟨2, ![8, 1792]⟩
abbrev S64x1792 : Shape := ⟨2, ![64, 1792]⟩
abbrev S128x1792 : Shape := ⟨2, ![128, 1792]⟩
abbrev S64x128 : Shape := ⟨2, ![64, 128]⟩
abbrev S1x1792 : Shape := ⟨2, ![1, 1792]⟩

abbrev nBuf : Space → Nat
  | .hbm => 5
  | .vmem => 9
  | .smem => 0
  | _ => 0

abbrev bufTy : (tb : Table) → Fin (tcTables nBuf tb) → BufTy
  | .hbm, ⟨0, _⟩ => ⟨S64x4096, .f32⟩
  | .hbm, ⟨1, _⟩ => ⟨S4096x14336, .i32⟩
  | .hbm, ⟨2, _⟩ => ⟨S32x14336, .f32⟩
  | .hbm, ⟨3, _⟩ => ⟨S64x4096, .bf16⟩
  | .hbm, ⟨4, _⟩ => ⟨S64x14336, .f32⟩
  | .local _ .vmem, ⟨0, _⟩ => ⟨S64x1024, .bf16⟩
  | .local _ .vmem, ⟨1, _⟩ => ⟨S64x1024, .bf16⟩
  | .local _ .vmem, ⟨2, _⟩ => ⟨S1024x1792, .i32⟩
  | .local _ .vmem, ⟨3, _⟩ => ⟨S1024x1792, .i32⟩
  | .local _ .vmem, ⟨4, _⟩ => ⟨S8x1792, .f32⟩
  | .local _ .vmem, ⟨5, _⟩ => ⟨S8x1792, .f32⟩
  | .local _ .vmem, ⟨6, _⟩ => ⟨S64x1792, .f32⟩
  | .local _ .vmem, ⟨7, _⟩ => ⟨S64x1792, .f32⟩
  | .local _ .vmem, ⟨8, _⟩ => ⟨S64x1792, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v95 : BitVec 1 := Scalar.cmpi .eq arg1 c3_i32
  let v96 : BitVec 32 := Scalar.extui v95
  let c0_i32_53 : BitVec 32 := 0#32
  let v97 : BitVec 1 := Scalar.cmpi .ne v96 c0_i32_53
  v97

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1792 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bitsLt_bf16_f32 : FTy.bits .bf16 < FTy.bits .f32
  inb_S64x1792_S64x1792_0_0 : ∀ a, (![0, 0] : Fin 2 → Nat) a + S64x1792.size a ≤ S64x1792.size a
  h_S64x1792 : 0 < S64x1792.numel
  shapeCasts_S64x1792_S64x1792 : S64x1792.ShapeCasts S64x1792
  inb_S1024x1792_S128x1792_0_0 : ∀ a, (![0, 0] : Fin 2 → Nat) a + S128x1792.size a ≤ S1024x1792.size a
  h_S128x1792 : 0 < S128x1792.numel
  inb_S64x1024_S64x128_0_0 : ∀ a, (![0, 0] : Fin 2 → Nat) a + S64x128.size a ≤ S64x1024.size a
  h_S64x128 : 0 < S64x128.numel
  shapeCasts_S64x128_S64x128 : S64x128.ShapeCasts S64x128
  inb_S8x1792_S1x1792_0_0 : ∀ a, (![0, 0] : Fin 2 → Nat) a + S1x1792.size a ≤ S8x1792.size a
  h_S1x1792 : 0 < S1x1792.numel
  broadcasts_S1x1792_S64x1792 : S1x1792.Broadcasts S64x1792
  inb_S1024x1792_S128x1792_128_0 : ∀ a, (![128, 0] : Fin 2 → Nat) a + S128x1792.size a ≤ S1024x1792.size a
  inb_S64x1024_S64x128_0_128 : ∀ a, (![0, 128] : Fin 2 → Nat) a + S64x128.size a ≤ S64x1024.size a
  inb_S8x1792_S1x1792_1_0 : ∀ a, (![1, 0] : Fin 2 → Nat) a + S1x1792.size a ≤ S8x1792.size a
  inb_S1024x1792_S128x1792_256_0 : ∀ a, (![256, 0] : Fin 2 → Nat) a + S128x1792.size a ≤ S1024x1792.size a
  inb_S64x1024_S64x128_0_256 : ∀ a, (![0, 256] : Fin 2 → Nat) a + S64x128.size a ≤ S64x1024.size a
  inb_S8x1792_S1x1792_2_0 : ∀ a, (![2, 0] : Fin 2 → Nat) a + S1x1792.size a ≤ S8x1792.size a
  inb_S1024x1792_S128x1792_384_0 : ∀ a, (![384, 0] : Fin 2 → Nat) a + S128x1792.size a ≤ S1024x1792.size a
  inb_S64x1024_S64x128_0_384 : ∀ a, (![0, 384] : Fin 2 → Nat) a + S64x128.size a ≤ S64x1024.size a
  inb_S8x1792_S1x1792_3_0 : ∀ a, (![3, 0] : Fin 2 → Nat) a + S1x1792.size a ≤ S8x1792.size a
  inb_S1024x1792_S128x1792_512_0 : ∀ a, (![512, 0] : Fin 2 → Nat) a + S128x1792.size a ≤ S1024x1792.size a
  inb_S64x1024_S64x128_0_512 : ∀ a, (![0, 512] : Fin 2 → Nat) a + S64x128.size a ≤ S64x1024.size a
  inb_S8x1792_S1x1792_4_0 : ∀ a, (![4, 0] : Fin 2 → Nat) a + S1x1792.size a ≤ S8x1792.size a
  inb_S1024x1792_S128x1792_640_0 : ∀ a, (![640, 0] : Fin 2 → Nat) a + S128x1792.size a ≤ S1024x1792.size a
  inb_S64x1024_S64x128_0_640 : ∀ a, (![0, 640] : Fin 2 → Nat) a + S64x128.size a ≤ S64x1024.size a
  inb_S8x1792_S1x1792_5_0 : ∀ a, (![5, 0] : Fin 2 → Nat) a + S1x1792.size a ≤ S8x1792.size a
  inb_S1024x1792_S128x1792_768_0 : ∀ a, (![768, 0] : Fin 2 → Nat) a + S128x1792.size a ≤ S1024x1792.size a
  inb_S64x1024_S64x128_0_768 : ∀ a, (![0, 768] : Fin 2 → Nat) a + S64x128.size a ≤ S64x1024.size a
  inb_S8x1792_S1x1792_6_0 : ∀ a, (![6, 0] : Fin 2 → Nat) a + S1x1792.size a ≤ S8x1792.size a
  inb_S1024x1792_S128x1792_896_0 : ∀ a, (![896, 0] : Fin 2 → Nat) a + S128x1792.size a ≤ S1024x1792.size a
  inb_S64x1024_S64x128_0_896 : ∀ a, (![0, 896] : Fin 2 → Nat) a + S64x128.size a ≤ S64x1024.size a
  inb_S8x1792_S1x1792_7_0 : ∀ a, (![7, 0] : Fin 2 → Nat) a + S1x1792.size a ≤ S8x1792.size a
  dot_S64x128_S128x1792_S64x1792_1_0_0_1_n_n_wf : DotDims.WF S64x128 S128x1792 S64x1792 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S64x4096.size a
  hwx0_0 : ∀ i : grid0.Coords, EltTy.bits .bf16 = 32 ∨ (Rect.block (s := S64x4096) S64x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1792.size a ≤ S4096x14336.size a
  hwx0_1 : ∀ i : grid0.Coords, EltTy.bits .i32 = 32 ∨ (Rect.block (s := S4096x14336) S1024x1792.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1792.size a ≤ S32x14336.size a
  hwx0_2 : ∀ i : grid0.Coords, EltTy.bits .f32 = 32 ∨ (Rect.block (s := S32x14336) S8x1792.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1792.size a ≤ S64x14336.size a
  hwx0_3 : ∀ i : grid0.Coords, EltTy.bits .f32 = 32 ∨ (Rect.block (s := S64x14336) S64x1792.size (cc0_transform_3 i) (hinb0_3 i)).WholeWords (EltTy.packing .f32)

variable [Facts₀]

def dot_S64x128_S128x1792_S64x1792_1_0_0_1_n_n : DotDims S64x128 S128x1792 S64x1792 where
  lhsContracting := [1]
  rhsContracting := [0]
  lhsNonContracting := [0]
  rhsNonContracting := [1]
  lhsBatch := []
  rhsBatch := []
  wf := dot_S64x128_S128x1792_S64x1792_1_0_0_1_n_n_wf

abbrev win0_0 : Pipeline.Window sig grid0 :=
  Pipeline.Window.ofSpec (Memref.whole main_v0) S64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1792.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x1792.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x1792.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S64x4096 : Shape := ⟨2, ![64, 4096]⟩
abbrev S4096x14336 : Shape := ⟨2, ![4096, 14336]⟩
abbrev S32x14336 : Shape := ⟨2, ![32, 14336]⟩
abbrev S32x128x14336 : Shape := ⟨3, ![32, 128, 14336]⟩
abbrev S_ : Shape := ⟨0, ![]⟩
abbrev S64x14336 : Shape := ⟨2, ![64, 14336]⟩

abbrev nBuf : Space → Nat
  | .hbm => 11
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S4096x14336, .i32⟩
  | .hbm, ⟨2, _⟩ => ⟨S32x14336, .f32⟩
  | .hbm, ⟨3, _⟩ => ⟨S32x128x14336, .f32⟩
  | .hbm, ⟨4, _⟩ => ⟨S4096x14336, .f32⟩
  | .hbm, ⟨5, _⟩ => ⟨S4096x14336, .f32⟩
  | .hbm, ⟨6, _⟩ => ⟨S_, .f32⟩
  | .hbm, ⟨7, _⟩ => ⟨S4096x14336, .f32⟩
  | .hbm, ⟨8, _⟩ => ⟨S4096x14336, .f32⟩
  | .hbm, ⟨9, _⟩ => ⟨S4096x14336, .f32⟩
  | .hbm, ⟨10, _⟩ => ⟨S64x14336, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S32x14336_S32x128x14336_0_2 : S32x14336.BroadcastsInDim S32x128x14336 (![0, 2] : Fin 2 → Fin S32x128x14336.rank)
  shapeCasts_S32x128x14336_S4096x14336 : S32x128x14336.ShapeCasts S4096x14336
  bcast_S_S4096x14336 : S_.BroadcastsInDim S4096x14336 (![] : Fin 0 → Fin S4096x14336.rank)
  dot_S64x4096_S4096x14336_S64x14336_1_0_0_1_n_n_wf : DotDims.WF S64x4096 S4096x14336 S64x14336 [1] [0] [0] [1] [] []

variable [Facts₀]

def dot_S64x4096_S4096x14336_S64x14336_1_0_0_1_n_n : DotDims S64x4096 S4096x14336 S64x14336 where
  lhsContracting := [1]
  rhsContracting := [0]
  lhsNonContracting := [0]
  rhsNonContracting := [1]
  lhsBatch := []
  rhsBatch := []
  wf := dot_S64x4096_S4096x14336_S64x14336_1_0_0_1_n_n_wf

class Facts : Prop extends Facts₀ where

variable [Facts]
-- ==== Proof.Step.lean ====
/-
  One K-step of the kernel body as a pure function.

  At a grid point the body holds a [64, 1024] block of the activations, a [1024, 1792] block of the integer codes and
  an [8, 1792] block of the scales. It walks the block's 8 quantisation groups in order: group `g` takes rows
  `128 g … 128 g + 127` of the codes, columns `128 g … 128 g + 127` of the activations and row `g` of the scales,
  converts the codes to floats, subtracts the zero point, multiplies the two 128-long slices as matrices, scales the
  product column by column, and adds it to the running accumulator. `step` is the accumulator after the eighth
  group, as a function of the three blocks and of the accumulator the step started from; the printed body's
  arithmetic enters only through its named payloads.
-/
import proofs.«132697_j29832842838090_2_alg».proof.Proof.Gen.KernelIdeal.Skeleton
import Idealize.ShloMosaic.Lib.Pipeline.FrameBody

noncomputable section

namespace Cert.KernelIdeal.Acc

open Idealize.ShloMosaic Idealize.SL.Sem
open Cert.KernelIdeal Cert.KernelIdeal.Gen

variable {F : FTy → Type} [FloatOps F]

/-- The accumulator after one K-step: the eight groups' scaled products added, first to last, to `acc`. -/
def step (x0 : Vec F S64x1024 .bf16) (x1 : Vec F S1024x1792 .i32) (x2 : Vec F S8x1792 .f32) (acc : Vec F S64x1792 .f32) :
    Vec F S64x1792 .f32 :=
  k0_pay1
      (k0_pay6
        (k0_pay3 acc (View.ld x1 (Rect.unit ![0, 0] ![128, 1792] inb_S1024x1792_S128x1792_0_0))
          (View.ld x0 (Rect.unit ![0, 0] ![64, 128] inb_S64x1024_S64x128_0_0))
          (View.ld x2 (Rect.unit ![0, 0] ![1, 1792] inb_S8x1792_S1x1792_0_0))
          (View.ld x1 (Rect.unit ![128, 0] ![128, 1792] inb_S1024x1792_S128x1792_128_0))
          (View.ld x0 (Rect.unit ![0, 128] ![64, 128] inb_S64x1024_S64x128_0_128))
          (View.ld x2 (Rect.unit ![1, 0] ![1, 1792] inb_S8x1792_S1x1792_1_0)))
        (k0_pay4 (View.ld x0 (Rect.unit ![0, 256] ![64, 128] inb_S64x1024_S64x128_0_256)))
        (View.ld x2 (Rect.unit ![2, 0] ![1, 1792] inb_S8x1792_S1x1792_2_0))
        (k0_pay5 (View.ld x1 (Rect.unit ![256, 0] ![128, 1792] inb_S1024x1792_S128x1792_256_0)))
        (View.ld x1 (Rect.unit ![384, 0] ![128, 1792] inb_S1024x1792_S128x1792_384_0))
        (View.ld x0 (Rect.unit ![0, 384] ![64, 128] inb_S64x1024_S64x128_0_384))
        (View.ld x2 (Rect.unit ![3, 0] ![1, 1792] inb_S8x1792_S1x1792_3_0))
        (View.ld x1 (Rect.unit ![512, 0] ![128, 1792] inb_S1024x1792_S128x1792_512_0))
        (View.ld x0 (Rect.unit ![0, 512] ![64, 128] inb_S64x1024_S64x128_0_512))
        (View.ld x2 (Rect.unit ![4, 0] ![1, 1792] inb_S8x1792_S1x1792_4_0)))
      (k0_pay7 (View.ld x0 (Rect.unit ![0, 640] ![64, 128] inb_S64x1024_S64x128_0_640)))
      (View.ld x2 (Rect.unit ![5, 0] ![1, 1792] inb_S8x1792_S1x1792_5_0))
      (k0_pay8 (View.ld x1 (Rect.unit ![640, 0] ![128, 1792] inb_S1024x1792_S128x1792_640_0)))
      (View.ld x1 (Rect.unit ![768, 0] ![128, 1792] inb_S1024x1792_S128x1792_768_0))
      (View.ld x0 (Rect.unit ![0, 768] ![64, 128] inb_S64x1024_S64x128_0_768))
      (View.ld x2 (Rect.unit ![6, 0] ![1, 1792] inb_S8x1792_S1x1792_6_0))
      (View.ld x1 (Rect.unit ![896, 0] ![128, 1792] inb_S1024x1792_S128x1792_896_0))
      (View.ld x0 (Rect.unit ![0, 896] ![64, 128] inb_S64x1024_S64x128_0_896))
      (View.ld x2 (Rect.unit ![7, 0] ![1, 1792] inb_S8x1792_S1x1792_7_0))

end Cert.KernelIdeal.Acc

end
-- ==== Proof.Pieces.lean ====
/-
  What each control case of the kernel body leaves behind is one K-step.

  The body has three control cases over the K axis of the grid: the first K-step zeroes the accumulator before it
  adds (case A), the middle ones add to what the step before left (case B), the last one adds and then copies the
  accumulator to the output block (case C). In every case the accumulator scratch ends at `step` of the point's three
  input blocks, started from zero in case A and from the previous contents otherwise; and in case C the output block
  ends at the same value, since it is a copy of the accumulator read back after the final store.
-/
import proofs.«132697_j29832842838090_2_alg».proof.Proof.Gen.KernelIdeal.Frame
import proofs.«132697_j29832842838090_2_alg».proof.Proof.Step
import Idealize.ShloMosaic.Lib.Pipeline.Value
import Idealize.ShloMosaic.Lib.Tactic

set_option maxRecDepth 16384

noncomputable section

namespace Cert.KernelIdeal.Acc

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

/-- The zero block the first K-step stores into the accumulator before adding. -/
abbrev zero : Vec F S64x1792 .f32 := k0_pay2

/-- A middle K-step leaves the accumulator at `step` of the blocks over what it held. -/
theorem scratch_B (c : Dev nD) (i : grid0.Coords) (arg2 : Memref sig .tc .vmem S64x1024 .bf16) (harg2 : arg2.IsWhole) (arg3 : Memref sig .tc .vmem S1024x1792 .i32) (harg3 : arg3.IsWhole) (arg4 : Memref sig .tc .vmem S8x1792 .f32) (harg4 : arg4.IsWhole) (arg5 : Memref sig .tc .vmem S64x1792 .f32) (harg5 : arg5.IsWhole) (arg6 : Memref sig .tc .vmem S64x1792 .f32) (harg6 : arg6.IsWhole) (hc0 : ¬cond0_0 i) (hc1 : ¬cond0_1 i)
    (x0 : Vec F S64x1024 .bf16) (x1 : Vec F S1024x1792 .i32) (x2 : Vec F S8x1792 .f32) (xs0 : Vec F S64x1792 .f32) :
    sout0_B_0 c i arg2 harg2 arg3 harg3 arg4 harg4 arg5 harg5 arg6 harg6 hc0 hc1 x0 x1 x2 xs0 = step x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg4.read_unread, harg6.read_unread, View.ld_unit_zero (S := S64x1792) hz]
  rfl

/-- The last K-step leaves the accumulator at `step` of the blocks over what it held. -/
theorem scratch_C (c : Dev nD) (i : grid0.Coords) (arg2 : Memref sig .tc .vmem S64x1024 .bf16) (harg2 : arg2.IsWhole) (arg3 : Memref sig .tc .vmem S1024x1792 .i32) (harg3 : arg3.IsWhole) (arg4 : Memref sig .tc .vmem S8x1792 .f32) (harg4 : arg4.IsWhole) (arg5 : Memref sig .tc .vmem S64x1792 .f32) (harg5 : arg5.IsWhole) (arg6 : Memref sig .tc .vmem S64x1792 .f32) (harg6 : arg6.IsWhole) (hc0 : ¬cond0_0 i) (hc1 : cond0_1 i)
    (x0 : Vec F S64x1024 .bf16) (x1 : Vec F S1024x1792 .i32) (x2 : Vec F S8x1792 .f32) (xs0 : Vec F S64x1792 .f32) :
    sout0_C_0 c i arg2 harg2 arg3 harg3 arg4 harg4 arg5 harg5 arg6 harg6 hc0 hc1 x0 x1 x2 xs0 = step x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread, View.ld_unit_zero (S := S64x1792) hz]
  rfl

/-- … and copies it to the output block: the output block ends at the same `step`. -/
theorem out_C (c : Dev nD) (i : grid0.Coords) (arg2 : Memref sig .tc .vmem S64x1024 .bf16) (harg2 : arg2.IsWhole) (arg3 : Memref sig .tc .vmem S1024x1792 .i32) (harg3 : arg3.IsWhole) (arg4 : Memref sig .tc .vmem S8x1792 .f32) (harg4 : arg4.IsWhole) (arg5 : Memref sig .tc .vmem S64x1792 .f32) (harg5 : arg5.IsWhole) (arg6 : Memref sig .tc .vmem S64x1792 .f32) (harg6 : arg6.IsWhole) (hc0 : ¬cond0_0 i) (hc1 : cond0_1 i)
    (x0 : Vec F S64x1024 .bf16) (x1 : Vec F S1024x1792 .i32) (x2 : Vec F S8x1792 .f32) (xs0 : Vec F S64x1792 .f32) :
    out0_C_3 c i arg2 harg2 arg3 harg3 arg4 harg4 arg5 harg5 arg6 harg6 hc0 hc1 x0 x1 x2 xs0 = step x0 x1 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz, View.readCov_unit_zero (S := S64x1792) _ hz]
  simp only [View.readAt_eq_ld, harg2.read_unread, harg3.read_unread, harg4.read_unread, harg6.read_unread, View.ld_unit_zero (S := S64x1792) hz]
  rfl

/-- The first K-step zeroes the accumulator and leaves it at `step` of the blocks over zero. -/
theorem scratch_A (c : Dev nD) (i : grid0.Coords) (arg2 : Memref sig .tc .vmem S64x1024 .bf16) (harg2 : arg2.IsWhole) (arg3 : Memref sig .tc .vmem S1024x1792 .i32) (harg3 : arg3.IsWhole) (arg4 : Memref sig .tc .vmem S8x1792 .f32) (harg4 : arg4.IsWhole) (arg5 : Memref sig .tc .vmem S64x1792 .f32) (harg5 : arg5.IsWhole) (arg6 : Memref sig .tc .vmem S64x1792 .f32) (harg6 : arg6.IsWhole) (hc0 : cond0_0 i) (hc1 : ¬cond0_1 i)
    (x0 : Vec F S64x1024 .bf16) (x1 : Vec F S1024x1792 .i32) (x2 : Vec F S8x1792 .f32) :
    sout0_A_0 c i arg2 harg2 arg3 harg3 arg4 harg4 arg5 harg5 arg6 harg6 hc0 hc1 x0 x1 x2 = step x0 x1 x2 zero := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S64x1792) hz, View.readCov_unit_zero (S := S64x1792) _ hz]
  simp only [View.readAt_eq_ld, harg2.read_unread, harg3.read_unread, harg4.read_unread, View.ld_unit_zero (S := S64x1792) hz]
  rfl

end Cert.KernelIdeal.Acc

end
-- ==== Proof.Spec.lean ====
/-
  The numbers both programs spell, and the dequantised weight.

  The kernel subtracts the zero point `8` in bf16 (pattern `0x4100`), the reference in f32 (pattern `0x41000000`);
  over the extended reals both patterns denote the real number `8`, and the f32 pattern `0x7F800000` that the
  finiteness precondition compares against denotes `+∞`. An integer code read as a signed integer and converted to
  a float is that integer, in either format, so the dequantised weight of a code `b` is `b - 8`, a real number.
-/
import Idealize.ShloMosaic.PureOps.Ideal

noncomputable section

namespace Cert.Spec

open Idealize.ShloMosaic

/-- The bf16 pattern of `8.0` denotes the real `8`. -/
theorem ofBits_eight_bf16 : Ideal.ofBits .bf16 0x4100#16 = ((8 : ℝ) : EReal) := by
  simp [Ideal.ofBits, Ideal.ieee, -EReal.coe_mul]; norm_num

/-- The f32 pattern of `8.0` denotes the real `8`. -/
theorem ofBits_eight_f32 : Ideal.ofBits .f32 0x41000000#32 = ((8 : ℝ) : EReal) := by
  simp [Ideal.ofBits, Ideal.ieee, -EReal.coe_mul]; norm_num

/-- The f32 pattern of `+inf` denotes `⊤`. -/
theorem ofBits_inf_f32 : Ideal.ofBits .f32 0x7F800000#32 = (⊤ : EReal) := by
  simp [Ideal.ofBits, Ideal.ieee]

/-- The dequantised weight of a 32-bit code: the code, read signed, minus the zero point `8`. -/
def wq (b : BitVec 32) : EReal := ((((b.toInt : ℝ) - 8 : ℝ)) : EReal)

/-- The dequantised weight is a real number. -/
theorem wq_real (b : BitVec 32) : ∃ x : ℝ, wq b = (x : EReal) := ⟨_, rfl⟩

/-- The integer converted to a float, minus the real `8`, is the dequantised weight. -/
theorem sub_eight (b : BitVec 32) : (((b.toInt : ℝ)) : EReal) - ((8 : ℝ) : EReal) = wq b := by
  unfold wq; rw [EReal.coe_sub]

/-- The quantisation group of row `k`: each 128 consecutive rows of the weight matrix share one scale per column. -/
def grp (k : Fin 4096) : Fin 32 := ⟨k.val / 128, by have := k.isLt; omega⟩

theorem grp_val (k : Fin 4096) : (grp k).val = k.val / 128 := rfl

end Cert.Spec

end
-- ==== Proof.StepEntry.lean ====
/-
  One K-step read at an output entry, over the extended reals.
-/
import proofs.«132697_j29832842838090_2_alg».proof.Proof.Step
import proofs.«132697_j29832842838090_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Acc

open Idealize.ShloMosaic Idealize.ShloMosaic.ValueIdx
open Cert.KernelIdeal Cert.KernelIdeal.Gen

/-- Row `128 g + j` of a K-block: row `j` of the block's quantisation group `g`. -/
def row (g : Fin 8) (j : Fin 128) : Fin 1024 := ⟨128 * g.val + j.val, by have := g.isLt; have := j.isLt; omega⟩

theorem row_val (g : Fin 8) (j : Fin 128) : (row g j).val = 128 * g.val + j.val := rfl

/-- What one K-step adds to output entry `(r, q)` of its column tile: over the block's 8 groups, the group's scale at
    column `q` times the dot product, over the group's 128 rows, of row `r` of the activations with column `q` of the
    dequantised codes. -/
def addend (x0 : Vec Ideal S64x1024 .bf16) (x1 : Vec Ideal S1024x1792 .i32) (x2 : Vec Ideal S8x1792 .f32) (r : Fin 64) (q : Fin 1792) : EReal :=
  ∑ g : Fin 8, x2 (ix2 g q) * ∑ j : Fin 128, x0 (ix2 r (row g j)) * Cert.Spec.wq (x1 (ix2 (row g j) q))

/-! ## The matrix product of two 128-long slices, read at an entry -/

/-- The left operand's index at output entry `i` and contraction index `k`: its row is the output's row. -/
theorem lhs_0 (i : S64x1792.Idx) (k : dot_S64x128_S128x1792_S64x1792_1_0_0_1_n_n.contr.Idx) :
    (dot_S64x128_S128x1792_S64x1792_1_0_0_1_n_n.lhsIdx i k 0).val = (i 0).val := by
  unfold DotDims.lhsIdx
  rw [dif_neg (show ¬(0 : Fin S64x128.rank) ∈ dot_S64x128_S128x1792_S64x1792_1_0_0_1_n_n.lhsBatch by decide), dif_pos (show (0 : Fin S64x128.rank) ∈ dot_S64x128_S128x1792_S64x1792_1_0_0_1_n_n.lhsNonContracting by decide)]
  rfl
/-- … and its column is the contraction index. -/
theorem lhs_1 (i : S64x1792.Idx) (k : dot_S64x128_S128x1792_S64x1792_1_0_0_1_n_n.contr.Idx) :
    (dot_S64x128_S128x1792_S64x1792_1_0_0_1_n_n.lhsIdx i k 1).val = (k ⟨0, by decide⟩).val :=
  dot_S64x128_S128x1792_S64x1792_1_0_0_1_n_n.lhsIdx_val_of_single rfl i k
/-- The right operand's row is the contraction index. -/
theorem rhs_0 (i : S64x1792.Idx) (k : dot_S64x128_S128x1792_S64x1792_1_0_0_1_n_n.contr.Idx) :
    (dot_S64x128_S128x1792_S64x1792_1_0_0_1_n_n.rhsIdx i k 0).val = (k ⟨0, by decide⟩).val :=
  dot_S64x128_S128x1792_S64x1792_1_0_0_1_n_n.rhsIdx_val_of_single rfl i k
/-- … and its column is the output's column. -/
theorem rhs_1 (i : S64x1792.Idx) (k : dot_S64x128_S128x1792_S64x1792_1_0_0_1_n_n.contr.Idx) :
    (dot_S64x128_S128x1792_S64x1792_1_0_0_1_n_n.rhsIdx i k 1).val = (i 1).val := by
  unfold DotDims.rhsIdx
  rw [dif_neg (show ¬(1 : Fin S128x1792.rank) ∈ dot_S64x128_S128x1792_S64x1792_1_0_0_1_n_n.rhsBatch by decide), dif_pos (show (1 : Fin S128x1792.rank) ∈ dot_S64x128_S128x1792_S64x1792_1_0_0_1_n_n.rhsNonContracting by decide)]
  rfl

/-- Over the extended reals the matrix product of a [64, 128] and a [128, 1792] array, accumulated into zero, is at
    entry `(r, q)` the dot product `∑ j, a (r, j) * w (j, q)` of row `r` with column `q`. -/
theorem matmul_entry (va : FVec Ideal S64x128 .bf16) (vw : FVec Ideal S128x1792 .bf16) (r : Fin 64) (q : Fin 1792) :
    matmul dot_S64x128_S128x1792_S64x1792_1_0_0_1_n_n none va vw (constant S64x1792 .f32 0x00000000#32) (ix2 r q)
      = ∑ j : Fin 128, va (ix2 r j) * vw (ix2 j q) := by
  simp only [matmul]
  rw [Ideal.matmul_constant_zero_apply, ← Equiv.sum_comp (ValueIdx.contrEquiv1 dot_S64x128_S128x1792_S64x1792_1_0_0_1_n_n 128 rfl rfl).symm]
  refine Finset.sum_congr rfl fun k _ => ?_
  have hk := ValueIdx.contrEquiv1_symm_val dot_S64x128_S128x1792_S64x1792_1_0_0_1_n_n 128 rfl rfl k
  have el : dot_S64x128_S128x1792_S64x1792_1_0_0_1_n_n.lhsIdx (ix2 r q) ((ValueIdx.contrEquiv1 dot_S64x128_S128x1792_S64x1792_1_0_0_1_n_n 128 rfl rfl).symm k) = ix2 r k := funext fun a => Fin.ext (by
    match a with
    | ⟨0, _⟩ => exact lhs_0 _ _
    | ⟨1, _⟩ => exact (lhs_1 _ _).trans hk)
  have er : dot_S64x128_S128x1792_S64x1792_1_0_0_1_n_n.rhsIdx (ix2 r q) ((ValueIdx.contrEquiv1 dot_S64x128_S128x1792_S64x1792_1_0_0_1_n_n 128 rfl rfl).symm k) = ix2 k q := funext fun a => Fin.ext (by
    match a with
    | ⟨0, _⟩ => exact (rhs_0 _ _).trans hk
    | ⟨1, _⟩ => exact rhs_1 _ _)
  rw [el, er]

/-! ## The dequantised codes and one group's scaled product, read at an entry -/

/-- A code converted to a float minus the splat of the bf16 constant `8` is, entry by entry, the dequantised
    weight `code - 8`. -/
theorem deq_entry (vb : Vec Ideal S128x1792 .i32) (j : Fin 128) (q : Fin 1792) :
    subf (sitofp .bf16 vb : FVec Ideal S128x1792 .bf16) (broadcast S128x1792 (Scalar.ofBits .bf16 0x4100#16)) (ix2 j q)
      = Cert.Spec.wq (vb (ix2 j q)) := by
  rw [subf_apply, sitofp_apply, broadcast_apply]
  show (((vb (ix2 j q)).toInt : ℝ) : EReal) - Ideal.ofBits .bf16 0x4100#16 = _
  rw [Cert.Spec.ofBits_eight_bf16, Cert.Spec.sub_eight]

/-- One group's term: the scale row broadcast over the 64 rows, times the matrix product of the two slices, is at
    entry `(r, q)` the scale at column `q` times the dot product of row `r` with column `q`. -/
theorem group_entry (vs : Vec Ideal S1x1792 .f32) (va : FVec Ideal S64x128 .bf16) (vw : FVec Ideal S128x1792 .bf16)
    (r : Fin 64) (q : Fin 1792) :
    mulf (broadcastTo S64x1792 vs broadcasts_S1x1792_S64x1792 : FVec Ideal S64x1792 .f32)
        (matmul dot_S64x128_S128x1792_S64x1792_1_0_0_1_n_n none va vw (constant S64x1792 .f32 0x00000000#32)) (ix2 r q)
      = vs (ix2 (0 : Fin 1) q) * ∑ j : Fin 128, va (ix2 r j) * vw (ix2 j q) := by
  rw [mulf_apply, matmul_entry, broadcastTo_1b_ab_apply]

/-! ## The three loads of group `g`, read at an entry -/

/-- Group `g`'s three loads read the blocks at the group's own rows and columns: the scale window is row `g` of the
    scales, the activation window is columns `128 g … 128 g + 127`, the code window is rows `128 g … 128 g + 127`; so
    the group's term, written over the loaded windows, is the same term written over the blocks at row `128 g + j`. -/
theorem group_ld (x0 : Vec Ideal S64x1024 .bf16) (x1 : Vec Ideal S1024x1792 .i32) (x2 : Vec Ideal S8x1792 .f32)
    (g : Fin 8) (o u : ℕ) (ho : o = 128 * g.val) (hu : u = g.val)
    (inb0 : ∀ a, (![0, o] : Fin 2 → ℕ) a + (![64, 128] : Fin 2 → ℕ) a ≤ S64x1024.size a)
    (inb1 : ∀ a, (![o, 0] : Fin 2 → ℕ) a + (![128, 1792] : Fin 2 → ℕ) a ≤ S1024x1792.size a)
    (inb2 : ∀ a, (![u, 0] : Fin 2 → ℕ) a + (![1, 1792] : Fin 2 → ℕ) a ≤ S8x1792.size a) (r : Fin 64) (q : Fin 1792) :
    View.ld x2 (Rect.unit ![u, 0] ![1, 1792] inb2) (ix2 (0 : Fin 1) q) *
        ∑ j : Fin 128, View.ld x0 (Rect.unit ![0, o] ![64, 128] inb0) (ix2 r j) *
          Cert.Spec.wq (View.ld x1 (Rect.unit ![o, 0] ![128, 1792] inb1) (ix2 j q))
      = x2 (ix2 g q) * ∑ j : Fin 128, x0 (ix2 r (row g j)) * Cert.Spec.wq (x1 (ix2 (row g j) q)) := by
  have e2 : View.ld x2 (Rect.unit ![u, 0] ![1, 1792] inb2) (ix2 (0 : Fin 1) q) = x2 (ix2 g q) :=
    congrArg x2 (funext fun a => Fin.ext (by
      match a with
      | ⟨0, _⟩ => show u + 1 * (0 : Fin 1).val = g.val; rw [hu]; simp
      | ⟨1, _⟩ => show 0 + 1 * q.val = q.val; omega))
  have e0 : ∀ j : Fin 128, View.ld x0 (Rect.unit ![0, o] ![64, 128] inb0) (ix2 r j) = x0 (ix2 r (row g j)) := fun j =>
    congrArg x0 (funext fun a => Fin.ext (by
      match a with
      | ⟨0, _⟩ => show 0 + 1 * r.val = r.val; omega
      | ⟨1, _⟩ => show o + 1 * j.val = 128 * g.val + j.val; omega))
  have e1 : ∀ j : Fin 128, View.ld x1 (Rect.unit ![o, 0] ![128, 1792] inb1) (ix2 j q) = x1 (ix2 (row g j) q) := fun j =>
    congrArg x1 (funext fun a => Fin.ext (by
      match a with
      | ⟨0, _⟩ => show o + 1 * j.val = 128 * g.val + j.val; omega
      | ⟨1, _⟩ => show 0 + 1 * q.val = q.val; omega))
  rw [e2]
  exact congrArg (x2 (ix2 g q) * ·) (Finset.sum_congr rfl fun j _ => by rw [e0 j, e1 j])

/-- A K-step adds its addend to the accumulator, entry by entry. -/
theorem step_entry (x0 : Vec Ideal S64x1024 .bf16) (x1 : Vec Ideal S1024x1792 .i32) (x2 : Vec Ideal S8x1792 .f32) (acc : Vec Ideal S64x1792 .f32)
    (r : Fin 64) (q : Fin 1792) :
    step (F := Ideal) x0 x1 x2 acc (ix2 r q) = acc (ix2 r q) + addend x0 x1 x2 r q := by
  -- the body's term: the self shape casts go; the eight additions and the eight group terms are read at the entry
  unfold step k0_pay1 k0_pay6 k0_pay3 k0_pay4 k0_pay5 k0_pay7 k0_pay8
  simp only [shapeCast_self, addf_apply, group_entry, deq_entry]
  -- each group's loads read the blocks at the group's own rows and columns
  rw [group_ld x0 x1 x2 0 0 0 (by decide) (by decide), group_ld x0 x1 x2 1 128 1 (by decide) (by decide),
    group_ld x0 x1 x2 2 256 2 (by decide) (by decide), group_ld x0 x1 x2 3 384 3 (by decide) (by decide),
    group_ld x0 x1 x2 4 512 4 (by decide) (by decide), group_ld x0 x1 x2 5 640 5 (by decide) (by decide),
    group_ld x0 x1 x2 6 768 6 (by decide) (by decide), group_ld x0 x1 x2 7 896 7 (by decide) (by decide)]
  -- the body adds the groups one at a time to the accumulator; addition of extended reals is associative
  unfold addend
  rw [Fin.sum_univ_eight]
  simp only [add_assoc]

/-- The block the first K-step stores into the accumulator is zero everywhere. -/
theorem zero_entry (i : S64x1792.Idx) : (k0_pay2 (F := Ideal)) i = (0 : EReal) := by
  -- a shape cast to the same shape is the identity, a splat reads its scalar everywhere, and the f32 pattern 0 denotes 0
  unfold k0_pay2
  rw [shapeCast_self, broadcast_apply]
  exact Ideal.ofBits_zero_f32

end Cert.KernelIdeal.Acc

end
-- ==== Proof.Fold.lean ====
/-
  The accumulator after the four K-steps of a column tile.

  The grid walks the 8 column tiles in order and, inside a tile, the 4 K-blocks: point `t` is K-step `t % 4` of
  tile `t / 4`. The accumulator is zeroed at the first K-step of a tile and each K-step adds its addend, so after
  K-step `j` of a tile it holds, entry by entry, zero plus the addends of the tile's K-steps `0 … j`; after the last
  one (`t % 4 = 3`) that is the sum over all four, and the output block written back at that point is a copy of it.
-/
import proofs.«132697_j29832842838090_2_alg».proof.Proof.Gen.KernelIdeal.Value
import proofs.«132697_j29832842838090_2_alg».proof.Proof.Pieces
import proofs.«132697_j29832842838090_2_alg».proof.Proof.StepEntry
import Idealize.ShloMosaic.Lib.Pipeline.Value

noncomputable section

namespace Cert.KernelIdeal.Acc

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value

variable (m : (ℓ : Loc nD τ sig) → Buf (Elt Ideal) ℓ)

/-- Point `n`'s addend at entry `i` of its column tile's block (zero past the grid, where it is never read). -/
def pointAddend (c : Dev nD) (n : ℕ) (i : S64x1792.Idx) : EReal :=
  if h : n < cfg0.N then addend (iblk m c 0 ⟨n, h⟩) (iblk m c 1 ⟨n, h⟩) (iblk m c 2 ⟨n, h⟩) (i 0) (i 1) else 0

theorem pointAddend_apply (c : Dev nD) (n : ℕ) (h : n < cfg0.N) (r : Fin 64) (q : Fin 1792) :
    pointAddend m c n (ix2 r q) = addend (iblk m c 0 ⟨n, h⟩) (iblk m c 1 ⟨n, h⟩) (iblk m c 2 ⟨n, h⟩) r q := by
  unfold pointAddend
  rw [dif_pos h]

/-- At the first K-step of a tile the accumulator ends at `step` over zero, whatever it held. -/
theorem scAt_first (c : Dev nD) (n : ℕ) (hb : n < cfg0.N) (h0 : n % 4 = 0) (acc : Vec Ideal S64x1792 .f32) :
    scAt0_0 m c n hb acc = step (iblk m c 0 ⟨n, hb⟩) (iblk m c 1 ⟨n, hb⟩) (iblk m c 2 ⟨n, hb⟩) zero := by
  have h1 : ¬ n % 4 = 3 := by omega
  unfold scAt0_0
  rw [dif_pos h0, dif_neg h1]
  exact scratch_A (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N))

/-- At a later K-step of a tile it ends at `step` over what the K-step before left. -/
theorem scAt_later (c : Dev nD) (n : ℕ) (hb : n < cfg0.N) (h0 : ¬ n % 4 = 0) (acc : Vec Ideal S64x1792 .f32) :
    scAt0_0 m c n hb acc = step (iblk m c 0 ⟨n, hb⟩) (iblk m c 1 ⟨n, hb⟩) (iblk m c 2 ⟨n, hb⟩) acc := by
  unfold scAt0_0
  rw [dif_neg h0]
  by_cases h1 : n % 4 = 3
  · rw [dif_pos h1]
    exact scratch_C (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) acc
  · rw [dif_neg h1]
    exact scratch_B (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) acc

/-- Entry by entry: the first K-step of a tile leaves zero plus its addend … -/
theorem scAt_first_entry (c : Dev nD) (n : ℕ) (hb : n < cfg0.N) (h0 : n % 4 = 0) (acc : Vec Ideal S64x1792 .f32) (i : S64x1792.Idx) :
    scAt0_0 m c n hb acc i = (0 : EReal) + pointAddend m c n i := by
  obtain ⟨r, q, rfl⟩ : ∃ (r : Fin 64) (q : Fin 1792), i = ix2 r q := ⟨i 0, i 1, eq_ix2 i⟩
  rw [scAt_first m c n hb h0 acc, step_entry, pointAddend_apply m c n hb r q]
  exact congrArg (· + _) (zero_entry (ix2 r q))

/-- … and a later one adds its addend to what the accumulator held. -/
theorem scAt_later_entry (c : Dev nD) (n : ℕ) (hb : n < cfg0.N) (h0 : ¬ n % 4 = 0) (acc : Vec Ideal S64x1792 .f32) (i : S64x1792.Idx) :
    scAt0_0 m c n hb acc i = acc i + pointAddend m c n i := by
  obtain ⟨r, q, rfl⟩ : ∃ (r : Fin 64) (q : Fin 1792), i = ix2 r q := ⟨i 0, i 1, eq_ix2 i⟩
  rw [scAt_later m c n hb h0 acc, step_entry, pointAddend_apply m c n hb r q]

/-- THE FOLD at an entry: after the last K-step of a tile (`t % 4 = 3`) the accumulator holds zero plus the addends of
    the tile's four K-steps, points `4 (t / 4) … 4 (t / 4) + 3`. -/
theorem scratch_last (c : Dev nD) (t : Fin cfg0.N) (h3 : t.val % 4 = 3) (i : S64x1792.Idx) :
    (outsAt0 m c t.val t.isLt).2 i = (0 : EReal) + ∑ s ∈ Finset.range 4, pointAddend m c (4 * (t.val / 4) + s) i := by
  rw [soutsAt0_0_eq m c t]
  have hN : cfg0.N = 32 := N_0
  have key := Pipeline.accAt_add_apply (N := cfg0.N) (ι := S64x1792.Idx) (β := EReal)
    (fun n h => scAt0_0 m c n h (VS0_0.read (Elt Ideal) VS0_0.junk)) (scAt0_0 m c) (fun _ => (0 : EReal)) (pointAddend m c)
    (4 * (t.val / 4)) 3
    (fun h i => scAt_first_entry m c _ h (by omega) _ i)
    (fun n h acc i hlt hle => scAt_later_entry m c n h (by omega) acc i)
    (t.val % 4) (by omega)
  rw [key _ i, h3]

/-- At the last K-step of a tile the output block the pipeline writes back is a copy of the accumulator. -/
theorem out_eq_scratch (c : Dev nD) (t : Fin cfg0.N) (h3 : t.val % 4 = 3) :
    (outsAt0 m c t.val t.isLt).1 = (outsAt0 m c t.val t.isLt).2 := by
  have h0 : ¬ t.val % 4 = 0 := by omega
  rw [outsAt0_C m c t h0 h3]
  dsimp only
  rw [out_C (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _,
    scratch_C (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _]

end Cert.KernelIdeal.Acc

end
-- ==== Proof.BlockEntries.lean ====
/-
  The input blocks of a grid point, entry by entry, as entries of the argument arrays.

  Point `t` of the grid is K-step `t % 4` of column tile `t / 4`. Its block of the activations is columns
  `1024 (t % 4) … + 1023` of `a` (all 64 rows); its block of the codes is rows `1024 (t % 4) … + 1023`, columns
  `1792 (t / 4) … + 1791` of `b_q`; its block of the scales is rows `8 (t % 4) … + 7`, the same columns, of `scales`.
  The activations reach the kernel through a change of float format, which over the extended reals is the identity.
  Entries are written at natural-number coordinates (zero outside the array), the form in which the sums over
  rows are re-indexed.
-/
import proofs.«132697_j29832842838090_2_alg».proof.Proof.Gen.KernelIdeal.Frame
import proofs.«132697_j29832842838090_2_alg».proof.Proof.Spec
import Idealize.ShloMosaic.Lib.Pipeline.Value
import Idealize.ShloMosaic.Lib.StableHlo.Run
import Idealize.ShloMosaic.Lib.ValueIdx

noncomputable section

namespace Cert.KernelIdeal.Acc

open Idealize.ShloMosaic Idealize.ShloMosaic.TcCoe Idealize.SL.Sem Idealize.ShloMosaic.ValueIdx
open Cert.KernelIdeal Cert.KernelIdeal.Gen

/-- A float matrix read at natural-number coordinates: its entry inside the array, zero outside. -/
def at2 {n0 n1 : ℕ} (x : (⟨2, ![n0, n1]⟩ : Shape).Idx → EReal) (i j : ℕ) : EReal :=
  if h : i < n0 ∧ j < n1 then x (ix2 ⟨i, h.1⟩ ⟨j, h.2⟩) else 0

/-- A matrix of codes read at natural-number coordinates as dequantised weights: zero outside. -/
def wqAt {n0 n1 : ℕ} (x : (⟨2, ![n0, n1]⟩ : Shape).Idx → BitVec 32) (i j : ℕ) : EReal :=
  if h : i < n0 ∧ j < n1 then Cert.Spec.wq (x (ix2 ⟨i, h.1⟩ ⟨j, h.2⟩)) else 0

theorem at2_of_lt {n0 n1 : ℕ} (x : (⟨2, ![n0, n1]⟩ : Shape).Idx → EReal) (i : Fin n0) (j : Fin n1) :
    at2 x i.val j.val = x (ix2 i j) := by
  unfold at2; rw [dif_pos ⟨i.isLt, j.isLt⟩]

theorem wqAt_of_lt {n0 n1 : ℕ} (x : (⟨2, ![n0, n1]⟩ : Shape).Idx → BitVec 32) (i : Fin n0) (j : Fin n1) :
    wqAt x i.val j.val = Cert.Spec.wq (x (ix2 i j)) := by
  unfold wqAt; rw [dif_pos ⟨i.isLt, j.isLt⟩]

variable (m : (ℓ : Loc nD τ sig) → Buf (Elt Ideal) ℓ)

/-- The printed index maps, decided over the 32 grid points: which block of each array point `t` works on. -/
theorem idx_facts : ∀ t : Fin cfg0.N,
    win0_0.index t (0 : Fin 2) = 0 ∧ win0_0.index t (1 : Fin 2) = t.val % 4
    ∧ win0_1.index t (0 : Fin 2) = t.val % 4 ∧ win0_1.index t (1 : Fin 2) = t.val / 4
    ∧ win0_2.index t (0 : Fin 2) = t.val % 4 ∧ win0_2.index t (1 : Fin 2) = t.val / 4
    ∧ win0_3.index t (0 : Fin 2) = 0 ∧ win0_3.index t (1 : Fin 2) = t.val / 4 :=
  (by decide +kernel : ∀ t : Fin grid0.N, _)

/-- The activations as the region finds them are the argument `a`: the host converts the float format before the
    call, the identity over the extended reals. -/
theorem V_v0 (c : Dev nD) (i : S64x4096.Idx) :
    (V m c main_v0 i : EReal) = (m ((c : Thread nD τ).loc main_arg0) i : EReal) := by
  have e : (V m c main_v0 : S64x4096.Idx → EReal) = (truncf (F := Ideal) (s := S64x4096) (φ := .f32) .bf16 (m ((c : Thread nD τ).loc main_arg0)) bitsLt_bf16_f32 : S64x4096.Idx → EReal) := by
    dsimp only [Gen.V, Gen.hostOps0]; after_results <;> rfl
  rw [e]; rfl

/-- Entry `(r, k)` of point `t`'s block of the activations is `a (r, 1024 (t % 4) + k)`. -/
theorem blk0_entry (c : Dev nD) (t : Fin cfg0.N) (kb : ℕ) (hkb : t.val % 4 = kb) (r : Fin 64) (k : Fin 1024) :
    ((iblk m c 0 t : Vec Ideal S64x1024 .bf16) (ix2 r k) : EReal)
      = at2 (n0 := 64) (n1 := 4096) (m ((c : Thread nD τ).loc main_arg0)) r.val (1024 * kb + k.val) := by
  subst hkb
  obtain ⟨e00, e01, -⟩ := idx_facts t
  have hk := k.isLt
  unfold at2
  rw [dif_pos ⟨r.isLt, by omega⟩, ← V_v0 m c]
  show V m c main_v0 (((cfg0.win 0).blk t).view.emb (ix2 r k)) = V m c main_v0 _
  refine congrArg (V m c main_v0) (funext fun a => Fin.ext ?_)
  match a with
  | ⟨0, _⟩ => show win0_0.index t (0 : Fin 2) * 64 + 1 * r.val = r.val; rw [e00]; omega
  | ⟨1, _⟩ => show win0_0.index t (1 : Fin 2) * 1024 + 1 * k.val = 1024 * (t.val % 4) + k.val; rw [e01]; omega

/-- Entry `(k, q)` of point `t`'s block of the codes, dequantised, is the weight at `(1024 (t % 4) + k, 1792 (t / 4) + q)`. -/
theorem blk1_entry (c : Dev nD) (t : Fin cfg0.N) (kb nt : ℕ) (hkb : t.val % 4 = kb) (hnt : t.val / 4 = nt) (k : Fin 1024) (q : Fin 1792) :
    Cert.Spec.wq ((iblk m c 1 t : Vec Ideal S1024x1792 .i32) (ix2 k q))
      = wqAt (n0 := 4096) (n1 := 14336) (m ((c : Thread nD τ).loc main_arg1)) (1024 * kb + k.val) (1792 * nt + q.val) := by
  subst hkb hnt
  obtain ⟨-, -, e10, e11, -⟩ := idx_facts t
  have hk := k.isLt
  have hq := q.isLt
  have ht : t.val < 32 := lt_of_lt_of_eq t.isLt N_0
  unfold wqAt
  rw [dif_pos ⟨by omega, by omega⟩, ← V_main_arg1 m c]
  show Cert.Spec.wq (V m c main_arg1 (((cfg0.win 1).blk t).view.emb (ix2 k q))) = Cert.Spec.wq (V m c main_arg1 _)
  refine congrArg (fun z => Cert.Spec.wq (V m c main_arg1 z)) (funext fun a => Fin.ext ?_)
  match a with
  | ⟨0, _⟩ => show win0_1.index t (0 : Fin 2) * 1024 + 1 * k.val = 1024 * (t.val % 4) + k.val; rw [e10]; omega
  | ⟨1, _⟩ => show win0_1.index t (1 : Fin 2) * 1792 + 1 * q.val = 1792 * (t.val / 4) + q.val; rw [e11]; omega

/-- Entry `(g, q)` of point `t`'s block of the scales is `scales (8 (t % 4) + g, 1792 (t / 4) + q)`. -/
theorem blk2_entry (c : Dev nD) (t : Fin cfg0.N) (kb nt : ℕ) (hkb : t.val % 4 = kb) (hnt : t.val / 4 = nt) (g : Fin 8) (q : Fin 1792) :
    ((iblk m c 2 t : Vec Ideal S8x1792 .f32) (ix2 g q) : EReal)
      = at2 (n0 := 32) (n1 := 14336) (m ((c : Thread nD τ).loc main_arg2)) (8 * kb + g.val) (1792 * nt + q.val) := by
  subst hkb hnt
  obtain ⟨-, -, -, -, e20, e21, -⟩ := idx_facts t
  have hg := g.isLt
  have hq := q.isLt
  have ht : t.val < 32 := lt_of_lt_of_eq t.isLt N_0
  unfold at2
  rw [dif_pos ⟨by omega, by omega⟩, ← V_main_arg2 m c]
  show V m c main_arg2 (((cfg0.win 2).blk t).view.emb (ix2 g q)) = V m c main_arg2 _
  refine congrArg (V m c main_arg2) (funext fun a => Fin.ext ?_)
  match a with
  | ⟨0, _⟩ => show win0_2.index t (0 : Fin 2) * 8 + 1 * g.val = 8 * (t.val % 4) + g.val; rw [e20]; omega
  | ⟨1, _⟩ => show win0_2.index t (1 : Fin 2) * 1792 + 1 * q.val = 1792 * (t.val / 4) + q.val; rw [e21]; omega

end Cert.KernelIdeal.Acc

end
-- ==== Proof.LibGroupedDot.lean ====
import Idealize.ShloMosaic.PureOps.Ideal

/-!
# A grouped dot product with the group's scale outside equals one scaled dot product

A long dot product `∑ k, A k * (W k * S (k / J))`, whose weight at row `k` carries the scale of
the group `k / J` that row lies in, can be computed group by group: inside a group the scale is a
common factor, so it may multiply the group's partial dot product once, afterwards. Over the
extended reals multiplication distributes over a sum only away from the infinities, so the
statement assumes that every factor is (the image of) a real number; the proof moves to the reals,
where the identity is distributivity plus a re-indexing of `k = N * p + J * g + j`.

Everything here is general (no program is involved): `coe_sum`, `sum_range_mul`,
`grouped_dot_semiring` and `grouped_dot_range` hold for every block count `P`, group count `G`
and group length `J`; `grouped_dot` is the instance `P = 4`, `G = 8`, `J = 128`.
-/

noncomputable section
namespace Cert.GroupedDot

open Finset

/-- The coercion of a finite real sum is the sum of the
coercions (the coercion `ℝ → EReal` is additive and sends `0` to `0`). -/
theorem coe_sum {ι : Type*} (s : Finset ι) (f : ι → ℝ) :
    ((∑ i ∈ s, f i : ℝ) : EReal) = ∑ i ∈ s, (f i : EReal) :=
  map_sum (⟨⟨Real.toEReal, EReal.coe_zero⟩, EReal.coe_add⟩ : ℝ →+ EReal) f s

/-- A sum over `k < m * n` is the double sum over `i < m` and `j < n` of the term at
`k = n * i + j` (the indices below `m * n` are listed row by row, `n` to a row). -/
theorem sum_range_mul {M : Type*} [AddCommMonoid M] (f : ℕ → M) (m n : ℕ) :
    ∑ k ∈ range (m * n), f k = ∑ i ∈ range m, ∑ j ∈ range n, f (n * i + j) := by
  induction m with
  | zero => simp
  | succ m ih =>
    rw [Nat.add_one_mul, Finset.sum_range_add, ih, Finset.sum_range_succ, Nat.mul_comm m n]

/-- In a commutative semiring: `P` blocks of `G` groups of `J` rows, block stride `N = G * J`.
Summing, group by group, the group's scale `s (G * p + g)` times the group's dot product
`∑ j < J, a k * w k` (`k = N * p + J * g + j`) gives the single dot product over all `k < P * N` of
`a k` with the scaled weight `w k * s (k / J)`: the scale is a common factor of its group
(distributivity), `k` runs through `N * p + J * g + j` exactly once, and `k / J = G * p + g`. -/
theorem grouped_dot_semiring {R : Type*} [CommSemiring R] (a w s : ℕ → R) (P G J N : ℕ)
    (hN : N = G * J) :
    ∑ p ∈ range P, ∑ g ∈ range G,
        s (G * p + g) * ∑ j ∈ range J, a (N * p + J * g + j) * w (N * p + J * g + j)
      = ∑ k ∈ range (P * N), a k * (w k * s (k / J)) := by
  subst hN
  -- split the long sum into blocks, then each block into groups
  rw [sum_range_mul]
  refine Finset.sum_congr rfl fun p _ => ?_
  rw [sum_range_mul]
  refine Finset.sum_congr rfl fun g _ => ?_
  -- the scale is a common factor of the group's terms
  rw [Finset.mul_sum]
  refine Finset.sum_congr rfl fun j hj => ?_
  have hjJ : j < J := Finset.mem_range.mp hj
  have hJ : 0 < J := Nat.lt_of_le_of_lt (Nat.zero_le j) hjJ
  -- the row `k = G * J * p + (J * g + j)` lies in group `k / J = G * p + g`
  have hdiv : (G * J * p + (J * g + j)) / J = G * p + g := by
    have e : G * J * p + (J * g + j) = J * (G * p + g) + j := by ring
    rw [e, Nat.mul_add_div hJ, Nat.div_eq_of_lt hjJ, Nat.add_zero]
  have hx : G * J * p + J * g + j = G * J * p + (J * g + j) := Nat.add_assoc _ _ _
  rw [hx, hdiv]
  ring

/-- The same over the extended reals, for factors that are all real numbers: there the products and
finite sums are the images of the real ones (`EReal.coe_mul`, `coe_sum`), so the identity is the
image of `grouped_dot_semiring` at `ℝ`. (Without the hypotheses it can fail: `x * (y + z)` need
not be `x * y + x * z` when infinities of both signs meet.) -/
theorem grouped_dot_range (A W S : ℕ → EReal)
    (hA : ∀ k, ∃ x : ℝ, A k = (x : EReal)) (hW : ∀ k, ∃ x : ℝ, W k = (x : EReal))
    (hS : ∀ g, ∃ x : ℝ, S g = (x : EReal)) (P G J N : ℕ) (hN : N = G * J) :
    ∑ p ∈ range P, ∑ g ∈ range G,
        S (G * p + g) * ∑ j ∈ range J, A (N * p + J * g + j) * W (N * p + J * g + j)
      = ∑ k ∈ range (P * N), A k * (W k * S (k / J)) := by
  choose a ha using hA
  choose w hw using hW
  choose s hs using hS
  simp only [ha, hw, hs, ← EReal.coe_mul, ← coe_sum]
  exact congrArg Real.toEReal (grouped_dot_semiring a w s P G J N hN)

/-- Four blocks of eight groups of 128 rows (4096 rows, block stride 1024), all factors real:
`0 + ∑ s < 4, ∑ g < 8, S (8 s + g) * ∑ j < 128, A k * W k` with `k = 1024 s + 128 g + j` equals the
single dot product `∑ k < 4096, A k * (W k * S (k / 128))`. The instance `P = 4`, `G = 8`,
`J = 128`, `N = 1024` of `grouped_dot_range`, with the sums over `Fin n` read as sums over
`range n`. -/
theorem grouped_dot (A W S : ℕ → EReal)
    (hA : ∀ k, ∃ x : ℝ, A k = (x : EReal)) (hW : ∀ k, ∃ x : ℝ, W k = (x : EReal)) (hS : ∀ g, ∃ x : ℝ, S g = (x : EReal)) :
    (0 : EReal) + ∑ s ∈ Finset.range 4, ∑ g : Fin 8, S (8 * s + g.val) * ∑ j : Fin 128, A (1024 * s + 128 * g.val + j.val) * W (1024 * s + 128 * g.val + j.val)
      = ∑ k : Fin 4096, A k.val * (W k.val * S (k.val / 128)) := by
  have h := grouped_dot_range A W S hA hW hS 4 8 128 1024 (by norm_num)
  rw [show (4 : ℕ) * 1024 = 4096 from by norm_num] at h
  rw [zero_add, Fin.sum_univ_eq_sum_range (fun k => A k * (W k * S (k / 128))) 4096, ← h]
  refine Finset.sum_congr rfl fun s _ => ?_
  rw [Fin.sum_univ_eq_sum_range
    (fun g => S (8 * s + g) *
      ∑ j : Fin 128, A (1024 * s + 128 * g + j.val) * W (1024 * s + 128 * g + j.val)) 8]
  refine Finset.sum_congr rfl fun g _ => ?_
  rw [Fin.sum_univ_eq_sum_range
    (fun j => A (1024 * s + 128 * g + j) * W (1024 * s + 128 * g + j)) 128]

end Cert.GroupedDot
end
-- ==== Proof.KernelEntry.lean ====
/-
  An output entry of the kernel as ONE sum over all 4096 rows.

  Column `1792 n + q` of the output belongs to column tile `n`. After the tile's four K-steps its entry in row `r`
  holds zero plus, over the K-steps `s` and the 8 groups `g` of each, the group's scale times the group's dot product
  of activations and dequantised codes: the rows `1024 s + 128 g + j`. When every activation and scale is a real
  number the scale may be moved inside the dot product, and the three nested sums are the one sum over the rows
  `k < 4096` with the scale of row `k`'s group `k / 128` — the arrangement the reference computes.
-/
import proofs.«132697_j29832842838090_2_alg».proof.Proof.Fold
import proofs.«132697_j29832842838090_2_alg».proof.Proof.BlockEntries
import proofs.«132697_j29832842838090_2_alg».proof.Proof.LibGroupedDot

noncomputable section

namespace Cert.KernelIdeal.Acc

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- A matrix of reals read at natural-number coordinates is real (zero outside the array). -/
theorem at2_real {n0 n1 : ℕ} (x : (⟨2, ![n0, n1]⟩ : Shape).Idx → EReal) (hx : ∀ i, ∃ y : ℝ, x i = (y : EReal)) (i j : ℕ) :
    ∃ y : ℝ, at2 x i j = (y : EReal) := by
  unfold at2
  split
  · exact hx _
  · exact ⟨0, rfl⟩

/-- A dequantised weight read at natural-number coordinates is real. -/
theorem wqAt_real {n0 n1 : ℕ} (x : (⟨2, ![n0, n1]⟩ : Shape).Idx → BitVec 32) (i j : ℕ) :
    ∃ y : ℝ, wqAt x i j = (y : EReal) := by
  unfold wqAt
  split
  · exact Cert.Spec.wq_real _
  · exact ⟨0, rfl⟩

/-- The addend of K-step `s` of column tile `n`, in terms of the argument arrays. -/
theorem pointAddend_arrays (c : Dev nD) (n s : ℕ) (hs : s < 4) (hn : n < 8) (r : Fin 64) (q : Fin 1792) :
    pointAddend m c (4 * n + s) (ix2 r q)
      = ∑ g : Fin 8, at2 (n0 := 32) (n1 := 14336) (m ((c : Thread nD τ).loc main_arg2)) (8 * s + g.val) (1792 * n + q.val)
          * ∑ j : Fin 128, at2 (n0 := 64) (n1 := 4096) (m ((c : Thread nD τ).loc main_arg0)) r.val (1024 * s + 128 * g.val + j.val)
              * wqAt (n0 := 4096) (n1 := 14336) (m ((c : Thread nD τ).loc main_arg1)) (1024 * s + 128 * g.val + j.val) (1792 * n + q.val) := by
  have h : 4 * n + s < cfg0.N := by rw [show cfg0.N = 32 from N_0]; omega
  have e1 : (⟨4 * n + s, h⟩ : Fin cfg0.N).val % 4 = s := by show (4 * n + s) % 4 = s; omega
  have e2 : (⟨4 * n + s, h⟩ : Fin cfg0.N).val / 4 = n := by show (4 * n + s) / 4 = n; omega
  rw [pointAddend_apply m c _ h]
  unfold addend
  refine Finset.sum_congr rfl fun g _ => ?_
  rw [blk2_entry m c ⟨4 * n + s, h⟩ s n e1 e2 g q]
  refine congrArg (_ * ·) (Finset.sum_congr rfl fun j _ => ?_)
  rw [blk0_entry m c ⟨4 * n + s, h⟩ s e1 r (row g j), blk1_entry m c ⟨4 * n + s, h⟩ s n e1 e2 (row g j) q, row_val,
    show 1024 * s + (128 * g.val + j.val) = 1024 * s + 128 * g.val + j.val from by omega]

/-- Zero plus the four K-steps' addends of column tile `n`, when the activations and scales are real, is the one sum
    over all rows with each row's weight scaled by its group's scale. -/
theorem tile_entry (c : Dev nD) (n : ℕ) (hn : n < 8) (r : Fin 64) (q : Fin 1792)
    (hA : ∀ i, ∃ y : ℝ, ((m ((c : Thread nD τ).loc main_arg0)) i : EReal) = (y : EReal)) (hS : ∀ i, ∃ y : ℝ, ((m ((c : Thread nD τ).loc main_arg2)) i : EReal) = (y : EReal)) :
    (0 : EReal) + ∑ s ∈ Finset.range 4, pointAddend m c (4 * n + s) (ix2 r q)
      = ∑ k : Fin 4096, at2 (n0 := 64) (n1 := 4096) (m ((c : Thread nD τ).loc main_arg0)) r.val k.val
          * (wqAt (n0 := 4096) (n1 := 14336) (m ((c : Thread nD τ).loc main_arg1)) k.val (1792 * n + q.val)
              * at2 (n0 := 32) (n1 := 14336) (m ((c : Thread nD τ).loc main_arg2)) (k.val / 128) (1792 * n + q.val)) := by
  rw [Finset.sum_congr rfl fun s hs => pointAddend_arrays m c n s (Finset.mem_range.mp hs) hn r q]
  exact Cert.GroupedDot.grouped_dot
    (fun k => at2 (n0 := 64) (n1 := 4096) (m ((c : Thread nD τ).loc main_arg0)) r.val k)
    (fun k => wqAt (n0 := 4096) (n1 := 14336) (m ((c : Thread nD τ).loc main_arg1)) k (1792 * n + q.val))
    (fun g => at2 (n0 := 32) (n1 := 14336) (m ((c : Thread nD τ).loc main_arg2)) g (1792 * n + q.val))
    (fun k => at2_real _ hA _ _) (fun k => wqAt_real _ _ _) (fun g => at2_real _ hS _ _)

end Cert.KernelIdeal.Acc

end
-- ==== Proof.Final.lean ====
/-
  The kernel's result array as one function of the argument arrays.

  `G a b s` at entry `(r, c)` is the sum over all 4096 rows `k` of `a (r, k)` times the dequantised code `(k, c)` scaled by
  the scale of row `k`'s group, `s (k / 128, c)`. The pipeline writes an output block back exactly at the last K-step
  of each column tile; that block is the accumulator after the tile's four K-steps, which entry by entry is `G` read
  through the block (for real activations and scales). The 8 column tiles cover the array: column `c` lies in tile
  `c / 1792`, written back at point `4 (c / 1792) + 3`. So the result array ends holding `G` of the arguments.
-/
import proofs.«132697_j29832842838090_2_alg».proof.Proof.KernelEntry

noncomputable section

namespace Cert.KernelIdeal.Acc

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value

/-- The dequantised matrix product, entry by entry: each row's weight is its code minus 8, times its group's scale. -/
def G (a : (⟨2, ![64, 4096]⟩ : Shape).Idx → EReal) (b : (⟨2, ![4096, 14336]⟩ : Shape).Idx → BitVec 32)
    (s : (⟨2, ![32, 14336]⟩ : Shape).Idx → EReal) : (⟨2, ![64, 14336]⟩ : Shape).Idx → EReal :=
  fun i => ∑ k : Fin 4096, a (ix2 (i 0) k) * (Cert.Spec.wq (b (ix2 k (i 1))) * s (ix2 (Cert.Spec.grp k) (i 1)))

theorem G_apply (a : (⟨2, ![64, 4096]⟩ : Shape).Idx → EReal) (b : (⟨2, ![4096, 14336]⟩ : Shape).Idx → BitVec 32)
    (s : (⟨2, ![32, 14336]⟩ : Shape).Idx → EReal) (r : Fin 64) (c : Fin 14336) :
    G a b s (ix2 r c) = ∑ k : Fin 4096, a (ix2 r k) * (Cert.Spec.wq (b (ix2 k c)) * s (ix2 (Cert.Spec.grp k) c)) := rfl

variable (m : (ℓ : Loc nD τ sig) → Buf (Elt Ideal) ℓ)

/-- The kernel's result as contents of its result array. -/
abbrev result (c : Dev nD) : Buf (Elt Ideal) ((c : Thread nD τ).loc main_v1) :=
  G (m ((c : Thread nD τ).loc main_arg0)) (m ((c : Thread nD τ).loc main_arg1)) (m ((c : Thread nD τ).loc main_arg2))

/-- WHAT A WRITE-BACK WRITES: at the last K-step of a column tile the output block is `G` read through the block. -/
theorem flushed_eq (c : Dev nD)
    (hA : ∀ i, ∃ y : ℝ, ((m ((c : Thread nD τ).loc main_arg0)) i : EReal) = (y : EReal)) (hS : ∀ i, ∃ y : ℝ, ((m ((c : Thread nD τ).loc main_arg2)) i : EReal) = (y : EReal))
    (t : Fin cfg0.N) (hf : (cfg0.win 3).flush t = true) :
    (dats m 0 c).flushed 3 t = ((cfg0.win 3).blk t).view.read (Elt Ideal) (result m c) := by
  have h3 : t.val % 4 = 3 := (flush0_3 t).mp hf
  have ht : t.val < 32 := lt_of_lt_of_eq t.isLt N_0
  obtain ⟨-, -, -, -, -, -, e30, e31⟩ := idx_facts t
  rw [flushed3 m c t, out_eq_scratch m c t h3]
  funext j
  obtain ⟨r, q, rfl⟩ : ∃ (r : Fin 64) (q : Fin 1792), j = ix2 r q := ⟨j 0, j 1, eq_ix2 j⟩
  have hq := q.isLt
  show (outsAt0 m c t.val t.isLt).2 (ix2 r q) = result m c (((cfg0.win 3).blk t).view.emb (ix2 r q))
  have hemb : ((cfg0.win 3).blk t).view.emb (ix2 r q) = ix2 r (⟨1792 * (t.val / 4) + q.val, by omega⟩ : Fin 14336) := by
    funext a; apply Fin.ext
    match a with
    | ⟨0, _⟩ => show win0_3.index t (0 : Fin 2) * 64 + 1 * r.val = r.val; rw [e30]; omega
    | ⟨1, _⟩ => show win0_3.index t (1 : Fin 2) * 1792 + 1 * q.val = 1792 * (t.val / 4) + q.val; rw [e31]; omega
  rw [hemb, scratch_last m c t h3 (ix2 r q), tile_entry m c (t.val / 4) (by omega) r q hA hS]
  show _ = G (m ((c : Thread nD τ).loc main_arg0)) (m ((c : Thread nD τ).loc main_arg1)) (m ((c : Thread nD τ).loc main_arg2)) (ix2 r (⟨1792 * (t.val / 4) + q.val, by omega⟩ : Fin 14336))
  rw [G_apply]
  refine Finset.sum_congr rfl fun k _ => ?_
  exact congrArg₂ (· * ·) (at2_of_lt (n0 := 64) (n1 := 4096) (m ((c : Thread nD τ).loc main_arg0)) r k)
    (congrArg₂ (· * ·) (wqAt_of_lt (n0 := 4096) (n1 := 14336) (m ((c : Thread nD τ).loc main_arg1)) k (⟨1792 * (t.val / 4) + q.val, by omega⟩ : Fin 14336))
      (at2_of_lt (n0 := 32) (n1 := 14336) (m ((c : Thread nD τ).loc main_arg2)) (Cert.Spec.grp k) (⟨1792 * (t.val / 4) + q.val, by omega⟩ : Fin 14336)))

/-- An index of the result array is in point `t`'s output block iff each coordinate is in the block's range. -/
theorem mem_blk (t : Fin cfg0.N) (i : S64x14336.Idx) :
    i ∈ ((cfg0.win 3).blk t).view.set ↔ ∀ a : Fin 2, win0_3.index t a * S64x1792.size a ≤ (i a).val ∧ (i a).val < win0_3.index t a * S64x1792.size a + S64x1792.size a := by
  show i ∈ ((View.whole main_v1).slice (win0_3.rect t)).set ↔ _
  rw [View.set_slice_whole, Rect.mem_set_unit]
  exact Iff.rfl

/-- THE COVER: column `c` is written back at the last K-step of its tile, point `4 (c / 1792) + 3`. -/
theorem cover (i : S64x14336.Idx) :
    ∃ t : Fin cfg0.N, (cfg0.win 3).flush t = true ∧ i ∈ ((cfg0.win 3).blk t).view.set := by
  have h0 : (i 0).val < 64 := (i 0).isLt
  have h1 : (i 1).val < 14336 := (i 1).isLt
  have hN : cfg0.N = 32 := N_0
  have hb : 4 * ((i 1).val / 1792) + 3 < cfg0.N := by rw [hN]; omega
  refine ⟨⟨4 * ((i 1).val / 1792) + 3, hb⟩, (flush0_3 _).mpr (by show (4 * ((i 1).val / 1792) + 3) % 4 = 3; omega), ?_⟩
  obtain ⟨-, -, -, -, -, -, e30, e31⟩ := idx_facts ⟨4 * ((i 1).val / 1792) + 3, hb⟩
  have e31' : win0_3.index ⟨4 * ((i 1).val / 1792) + 3, hb⟩ (1 : Fin 2) = (i 1).val / 1792 := by
    rw [e31]; show (4 * ((i 1).val / 1792) + 3) / 4 = (i 1).val / 1792; omega
  rw [mem_blk]
  intro a
  match a with
  | ⟨0, _⟩ =>
    show win0_3.index ⟨4 * ((i 1).val / 1792) + 3, hb⟩ (0 : Fin 2) * 64 ≤ (i 0).val ∧ (i 0).val < win0_3.index ⟨4 * ((i 1).val / 1792) + 3, hb⟩ (0 : Fin 2) * 64 + 64
    rw [e30]; omega
  | ⟨1, _⟩ =>
    show win0_3.index ⟨4 * ((i 1).val / 1792) + 3, hb⟩ (1 : Fin 2) * 1792 ≤ (i 1).val ∧ (i 1).val < win0_3.index ⟨4 * ((i 1).val / 1792) + 3, hb⟩ (1 : Fin 2) * 1792 + 1792
    rw [e31']; omega

/-- THE RESULT ARRAY after the run holds `G` of the arguments. -/
theorem final (c : Dev nD)
    (hA : ∀ i, ∃ y : ℝ, ((m ((c : Thread nD τ).loc main_arg0)) i : EReal) = (y : EReal)) (hS : ∀ i, ∃ y : ℝ, ((m ((c : Thread nD τ).loc main_arg2)) i : EReal) = (y : EReal)) :
    (dats m 0 c).arrAt 3 cfg0.N = result m c :=
  (dats m 0 c).arrAt_eq_of_cover 3 (result m c) (fun t hf => flushed_eq m c hA hS t hf) cover

/-- The run, read: every weakly fair execution ends with the result array at `G` of the arguments and the arguments
    unchanged, when the activations and scales are real. -/
theorem run (ρ : Dev nD → PrngReg)
    (hA : ∀ (c : Dev nD) i, ∃ y : ℝ, ((m ((c : Thread nD τ).loc main_arg0)) i : EReal) = (y : EReal))
    (hS : ∀ (c : Dev nD) i, ∃ y : ℝ, ((m ((c : Thread nD τ).loc main_arg2)) i : EReal) = (y : EReal)) :
    θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hA c) (hS c)), (h c).2⟩) (run_blocks m ρ)

end Cert.KernelIdeal.Acc

end
-- ==== Proof.FiniteInputs.lean ====
/-
  Under the precondition every activation and every scale is a real number.
-/
import proofs.«132697_j29832842838090_2_alg».proof.Pre_finite_inputs
import proofs.«132697_j29832842838090_2_alg».proof.Proof.Gen.Pre_finite_inputs
import proofs.«132697_j29832842838090_2_alg».proof.Proof.Spec
import Idealize.ShloMosaic.PureOps.Ideal
import Idealize.ShloMosaic.Lib.ReduceAll
import Idealize.ShloMosaic.Lib.ValueIdx

noncomputable section

namespace Cert.FiniteInputs

open Idealize.ShloMosaic

/-- The precondition's result has a single index. -/
instance : Subsingleton Cert.Pre_finite_inputs.S_.Idx := ⟨fun a b => funext fun d => d.elim0⟩

/-- An extended real whose absolute value `max x (-x)` is strictly below `+∞` is a real number: both infinities
    have absolute value `⊤`, which is not below `⊤`. -/
theorem real_of_abs_lt_inf (x : EReal)
    (h : Ideal.cmp .olt (max x (-x)) (Ideal.ofBits .f32 0x7F800000#32) = 1#1) : ∃ r : ℝ, x = (r : EReal) := by
  rw [Cert.Spec.ofBits_inf_f32] at h
  induction x using EReal.rec with
  | bot => simp [Ideal.cmp] at h
  | coe r => exact ⟨r, rfl⟩
  | top => simp [Ideal.cmp] at h

/-- The precondition says `|a| < +∞` and `|scales| < +∞` at every entry: over the extended reals, that both arrays hold
    real numbers. -/
theorem reals_of_pre (x0 : FVec Ideal Cert.Pre_finite_inputs.S64x4096 .f32) (x1 : IVec Cert.Pre_finite_inputs.S4096x14336 32)
    (x2 : FVec Ideal Cert.Pre_finite_inputs.S32x14336 .f32)
    (h : Cert.Pre_finite_inputs.fn (F := Ideal) x0 x1 x2 = fun _ => 1#1) :
    (∀ i, ∃ r : ℝ, x0 i = (r : EReal)) ∧ (∀ i, ∃ r : ℝ, x2 i = (r : EReal)) := by
  -- the predicate at its one index: the conjunction of the two reductions by `and`
  have h0 := congrFun h ValueIdx.ix0
  dsimp only [Cert.Pre_finite_inputs.fn] at h0
  obtain ⟨ha, hb⟩ := IntOp.andi_eq_one.1 h0
  refine ⟨fun i => ?_, fun i => ?_⟩
  · -- a reduction by `and` over both axes that is 1 had a 1 at every entry: `|x0 i| < +∞`
    have hi : Ideal.cmp .olt (max (x0 i) (-(x0 i))) (Ideal.ofBits .f32 0x7F800000#32) = 1#1 :=
      Host.reduce_andi_all _ _ _ _ _ ha i
    exact real_of_abs_lt_inf _ hi
  · have hi : Ideal.cmp .olt (max (x2 i) (-(x2 i))) (Ideal.ofBits .f32 0x7F800000#32) = 1#1 :=
      Host.reduce_andi_all _ _ _ _ _ hb i
    exact real_of_abs_lt_inf _ hi

end Cert.FiniteInputs

end
-- ==== Proof.RefEntry.lean ====
/-
  The reference read at an output entry, over the extended reals.
-/
import proofs.«132697_j29832842838090_2_alg».proof.Proof.Gen.ReferenceIdeal.Read
import proofs.«132697_j29832842838090_2_alg».proof.Proof.Spec
import Idealize.ShloMosaic.Lib.ValueIdx
import Idealize.ShloMosaic.Lib.Pipeline.Value
import Idealize.ShloMosaic.PureOps.Ideal.Laws

noncomputable section

namespace Cert.RefEntry

open Idealize.ShloMosaic Idealize.ShloMosaic.ValueIdx
open Cert.ReferenceIdeal

/-- The left operand of entry `(r, c)`'s `k`-th product sits at `(r, k)`. -/
theorem lidx_eq (r : Fin 64) (c : Fin 14336) (k : Fin 4096) : Read.lidx_main_v6 (ix2 r c) k = ix2 r k :=
  funext fun a => Fin.ext (by match a with | ⟨0, _⟩ => rfl | ⟨1, _⟩ => rfl)

/-- The right operand of entry `(r, c)`'s `k`-th product sits at `(k, c)`. -/
theorem ridx_eq (r : Fin 64) (c : Fin 14336) (k : Fin 4096) : Read.ridx_main_v6 (ix2 r c) k = ix2 k c :=
  funext fun a => Fin.ext (by match a with | ⟨0, _⟩ => rfl | ⟨1, _⟩ => rfl)

/-- The scales, broadcast to `[32, 128, 14336]` and flattened to `[4096, 14336]`, are read at `(k, c)` from the scale
    at `(k / 128, c)`: the flat position `k * 14336 + c` has `(k * 14336 + c) / (128 * 14336) = k / 128` and
    `(k * 14336 + c) % 14336 = c`, since `c < 14336`. -/
theorem scale_idx_eq (k : Fin 4096) (c : Fin 14336) :
    Read.idx_main_v0 (Read.idx_main_v1 (ix2 k c)) = ix2 (Cert.Spec.grp k) c :=
  funext fun a => Fin.ext (by
    have hk := k.isLt
    have hc := c.isLt
    match a with
    | ⟨0, _⟩ =>
      show (k.val * 14336 + c.val) / 1835008 = k.val / 128
      omega
    | ⟨1, _⟩ =>
      show (k.val * 14336 + c.val) % 14336 = c.val
      omega)

/-- Entry `(r, c)` of the reference's result: over all 4096 rows `k`, activation `(r, k)` times the dequantised code
    `(k, c)` scaled by its group's scale `(k / 128, c)` — the scale array repeated 128 times along the rows is read
    back at the row's group. -/
theorem ref_entry (x0 : (⟨S64x4096, .f32⟩ : BufTy).Contents (Elt Ideal)) (x1 : (⟨S4096x14336, .i32⟩ : BufTy).Contents (Elt Ideal))
    (x2 : (⟨S32x14336, .f32⟩ : BufTy).Contents (Elt Ideal)) (r : Fin 64) (c : Fin 14336) :
    Cert.ReferenceIdeal.Read.val_main_v6 (F := Ideal) x0 x1 x2 (ix2 r c)
      = ∑ k : Fin 4096, x0 (ix2 r k) * (Cert.Spec.wq (x1 (ix2 k c)) * x2 (ix2 (Cert.Spec.grp k) c)) := by
  -- the contraction as a sum over the rows, each operand at its own index
  rw [Read.val_main_v6_apply]
  refine Finset.sum_congr rfl fun k _ => ?_
  -- the weight entry, one operation at a time: (convert(code) - 8) * scale, the scale read at the row's group
  rw [lidx_eq, ridx_eq, Read.val_main_v5_apply, Read.val_main_v4_apply, Read.val_main_v2_apply, Read.val_main_v3_apply,
    Read.val_main_cst_apply, Read.val_main_v1_apply, Read.val_main_v0_apply, scale_idx_eq]
  -- over the extended reals: exact product and difference, the constant is the real 8, the converted code is the integer
  rw [Ideal.mulf_def, Ideal.subf_def, Ideal.ofBits_def, Cert.Spec.ofBits_eight_f32]
  have hs : FloatOps.sitofp (F := Ideal) FTy.f32 (x1 (ix2 k c)) = (((x1 (ix2 k c) : BitVec 32).toInt : ℝ) : EReal) := rfl
  rw [hs, Cert.Spec.sub_eight]

end Cert.RefEntry

end
-- ==== Proof.lean ====
/-
  A 4-bit-quantised matrix product against its plain reference, over the extended reals.

  The reference dequantises the weights — each integer code minus the zero point 8, times the scale of the code's
  group of 128 rows — and multiplies the activations `a` [64, 4096] by the resulting [4096, 14336] matrix in one
  product. The kernel walks 8 column tiles of 1792 columns and, inside a tile, 4 K-blocks of 1024 rows; in a K-block
  it takes the 8 groups one at a time, multiplies the group's 128 columns of `a` by the group's 128 rows of
  `code - 8`, and applies the group's scale to the PRODUCT before adding it to an accumulator that is zeroed at the
  tile's first K-block and copied to the output after its last.

  Over the extended reals every float operation is exact and a change of float format is the identity, so both
  programs compute, at entry `(r, c)`, sums of the same products `a (r, k) · (code (k, c) - 8) · scale (k / 128, c)`:
  the kernel grouped as `∑ K-blocks ∑ groups scale · (∑ rows a · (code - 8))`, the reference as one sum over the 4096
  rows. Moving the scale inside the inner sum is distributivity, which over the extended reals needs the factors to
  be real numbers: that is what the precondition (every activation and every scale finite) supplies; the codes are
  integers. Regrouping the three nested sums into one is re-indexing `k = 1024 s + 128 g + j`.

  The modules: Spec (the constants 8 and +∞, the dequantised weight), Step and Pieces (one K-block of the body as a
  pure function; each control case of the body leaves it), StepEntry (that function at an entry), Fold (the
  accumulator after a tile's four K-blocks), BlockEntries (a grid point's blocks as entries of the arguments),
  LibGroupedDot (the regrouping of the sums), KernelEntry and Final (the result array as one function `G` of the
  arguments), FiniteInputs (the precondition read as "real"), RefEntry (the reference at an entry).
  `preserves` asks nothing: the idealized kernel is the kernel's own text.
-/
import proofs.«132697_j29832842838090_2_alg».proof.Defs
import proofs.«132697_j29832842838090_2_alg».proof.Proof.Gen.Kernel
import proofs.«132697_j29832842838090_2_alg».proof.Proof.Gen.Kernel.Skeleton
import proofs.«132697_j29832842838090_2_alg».proof.Proof.Gen.Kernel.Launch
import proofs.«132697_j29832842838090_2_alg».proof.Proof.Gen.Kernel.Points
import proofs.«132697_j29832842838090_2_alg».proof.Proof.Gen.Kernel.Frame
import proofs.«132697_j29832842838090_2_alg».proof.Proof.Gen.KernelIdeal
import proofs.«132697_j29832842838090_2_alg».proof.Proof.Gen.KernelIdeal.Skeleton
import proofs.«132697_j29832842838090_2_alg».proof.Proof.Gen.KernelIdeal.Launch
import proofs.«132697_j29832842838090_2_alg».proof.Proof.Gen.KernelIdeal.Points
import proofs.«132697_j29832842838090_2_alg».proof.Proof.Gen.KernelIdeal.Frame
import proofs.«132697_j29832842838090_2_alg».proof.Proof.Gen.ReferenceIdeal
import proofs.«132697_j29832842838090_2_alg».proof.Proof.Gen.KernelIdeal.Value
import proofs.«132697_j29832842838090_2_alg».proof.Proof.Gen.ReferenceIdeal.Run
import proofs.«132697_j29832842838090_2_alg».proof.Proof.Gen.ReferenceIdeal.Read
import proofs.«132697_j29832842838090_2_alg».proof.Proof.Gen.Pre_finite_inputs
import proofs.«132697_j29832842838090_2_alg».proof.Proof.Final
import proofs.«132697_j29832842838090_2_alg».proof.Proof.FiniteInputs
import proofs.«132697_j29832842838090_2_alg».proof.Proof.RefEntry
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is eight host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The reference's result, entry by entry, is the function `G` of its arguments. -/
theorem ref_is_G (x0 : (⟨Cert.ReferenceIdeal.S64x4096, .f32⟩ : BufTy).Contents (Elt Ideal))
    (x1 : (⟨Cert.ReferenceIdeal.S4096x14336, .i32⟩ : BufTy).Contents (Elt Ideal))
    (x2 : (⟨Cert.ReferenceIdeal.S32x14336, .f32⟩ : BufTy).Contents (Elt Ideal)) :
    Cert.ReferenceIdeal.Read.val_main_v6 (F := Ideal) x0 x1 x2 = Cert.KernelIdeal.Acc.G x0 x1 x2 := by
  funext i
  obtain ⟨r, c, rfl⟩ : ∃ (r : Fin 64) (c : Fin 14336), i = ix2 r c := ⟨i 0, i 1, eq_ix2 i⟩
  rw [Cert.RefEntry.ref_entry, Cert.KernelIdeal.Acc.G_apply]

/-- From memories that agree on the arguments, with finite activations and scales, both programs end with the result
    array at `G` of the arguments. -/
theorem algebraic : Cert.algebraic_KernelIdeal_ReferenceIdeal := by
  intro m ρ m' ρ' hpre hagree
  have fin := fun c => Cert.FiniteInputs.reals_of_pre _ _ _ (hpre c)
  refine ⟨fun c => Cert.KernelIdeal.Acc.result m c,
    Cert.KernelIdeal.Acc.run m ρ (fun c => (fin c).1) (fun c => (fin c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, ref_is_G, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
